-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S800000x128 .f32) (main_arg2 : IVec S800000 32) (main_arg3 : IVec S800000 32) (main_arg4 : FVec F S128x256 .f32) (main_arg5 : FVec F S256 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S1x256 : Shape := ⟨2, ![1, 256]⟩
abbrev S1x128 : Shape := ⟨2, ![1, 128]⟩
abbrev S5000x128 : Shape := ⟨2, ![5000, 128]⟩
abbrev S5000x256 : Shape := ⟨2, ![5000, 256]⟩

abbrev nBuf : Space → Nat
  | .hbm => 25
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S1x256, .f32⟩
  | .hbm, ⟨23, _⟩ => ⟨S1x128, .f32⟩
  | .hbm, ⟨24, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S256_S1x256 : S256.ShapeCasts S1x256
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v10) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S50000x256 : Shape := ⟨2, ![50000, 256]⟩
abbrev S1x256 : Shape := ⟨2, ![1, 256]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x256, .f32⟩
  | .hbm, ⟨23, _⟩ => ⟨S1x256, .f32⟩
  | .hbm, ⟨24, _⟩ => ⟨S50000x256, .f32⟩
  | .hbm, ⟨25, _⟩ => ⟨S50000x256, .f32⟩
  | .hbm, ⟨26, _⟩ => ⟨S_, .f32⟩
  | .hbm, ⟨27, _⟩ => ⟨S50000x256, .f32⟩
  | .hbm, ⟨28, _⟩ => ⟨S50000x256, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_cst : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelDots.lean ====
/-
  The kernel body's two matrix products, read entry by entry at the extended reals.

  A `tpu.matmul` of a `[5000, K]` block by a `[K, N]` matrix into a zero accumulator holds, at row `p` and column `c`,
  the sum over the contracted axis `l < K` of `lhs[p, l] · rhs[l, c]`: the accumulator's zero word is the real zero, and
  the product's contraction index — a one-axis multi-index — is re-indexed by its single coordinate.  The two products
  of the body are `K = 128, N = 256` (features into hidden units) and `K = 256, N = 128` (hidden units into features).
-/
import proofs.«160545_j91036126806159_1_alg».proof.Proof.Gen.KernelIdeal
import Idealize.ShloMosaic.PureOps.Ideal.Laws
import Idealize.ShloMosaic.Lib.ValueIdx

noncomputable section

namespace Cert.KernelIdeal.Body

open Cert.KernelIdeal Idealize.ShloMosaic Idealize.ShloMosaic.ValueIdx

theorem dotIn_lhs0 (i : S5000x256.Idx) (q : dot_S5000x128_S128x256_S5000x256_1_0_0_1_n_n.contr.Idx) : (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem dotIn_lhs1 (i : S5000x256.Idx) (q : dot_S5000x128_S128x256_S5000x256_1_0_0_1_n_n.contr.Idx) : (dot_S5000x128_S128x256_S5000x256_1_0_0_1_n_n.lhsIdx i q 1).val = (q ⟨0, by decide⟩).val :=
  dot_S5000x128_S128x256_S5000x256_1_0_0_1_n_n.lhsIdx_val_of_single rfl i q
theorem dotIn_rhs0 (i : S5000x256.Idx) (q : dot_S5000x128_S128x256_S5000x256_1_0_0_1_n_n.contr.Idx) : (dot_S5000x128_S128x256_S5000x256_1_0_0_1_n_n.rhsIdx i q 0).val = (q ⟨0, by decide⟩).val :=
  dot_S5000x128_S128x256_S5000x256_1_0_0_1_n_n.rhsIdx_val_of_single rfl i q
theorem dotIn_rhs1 (i : S5000x256.Idx) (q : dot_S5000x128_S128x256_S5000x256_1_0_0_1_n_n.contr.Idx) : (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The first product (a block of aggregated rows by `w1`) at row `p`, hidden unit `c`: the sum over the 128 input features. -/
theorem dotIn_apply (a : FVec Ideal S5000x128 .bf16) (w : FVec Ideal S128x256 .bf16) (p : Fin 5000) (c : Fin 256) :
    matmul dot_S5000x128_S128x256_S5000x256_1_0_0_1_n_n none a w (constant (F := Ideal) S5000x256 .f32 0x00000000#32) (ix2 p c)
      = ∑ l : Fin 128, a (ix2 p l) * w (ix2 l c) := by
  simp only [matmul]
  rw [Ideal.matmul_constant_zero_apply, ← Equiv.sum_comp (contrEquiv1 dot_S5000x128_S128x256_S5000x256_1_0_0_1_n_n 128 rfl rfl).symm]
  refine Finset.sum_congr rfl fun l _ => ?_
  have hl := contrEquiv1_symm_val dot_S5000x128_S128x256_S5000x256_1_0_0_1_n_n 128 rfl rfl l
  have el : dot_S5000x128_S128x256_S5000x256_1_0_0_1_n_n.lhsIdx (ix2 p c) ((contrEquiv1 dot_S5000x128_S128x256_S5000x256_1_0_0_1_n_n 128 rfl rfl).symm l) = ix2 p l := funext fun ax => Fin.ext (by
    match ax with
    | ⟨0, _⟩ => exact dotIn_lhs0 _ _
    | ⟨1, _⟩ => exact (dotIn_lhs1 _ _).trans hl)
  have er : dot_S5000x128_S128x256_S5000x256_1_0_0_1_n_n.rhsIdx (ix2 p c) ((contrEquiv1 dot_S5000x128_S128x256_S5000x256_1_0_0_1_n_n 128 rfl rfl).symm l) = ix2 l c := funext fun ax => Fin.ext (by
    match ax with
    | ⟨0, _⟩ => exact (dotIn_rhs0 _ _).trans hl
    | ⟨1, _⟩ => exact dotIn_rhs1 _ _)
  rw [el, er]

theorem dotOut_lhs0 (i : S5000x128.Idx) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem dotOut_lhs1 (i : S5000x128.Idx) (q : dot_S5000x256_S256x128_S5000x128_1_0_0_1_n_n.contr.Idx) : (dot_S5000x256_S256x128_S5000x128_1_0_0_1_n_n.lhsIdx i q 1).val = (q ⟨0, by decide⟩).val :=
  dot_S5000x256_S256x128_S5000x128_1_0_0_1_n_n.lhsIdx_val_of_single rfl i q
theorem dotOut_rhs0 (i : S5000x128.Idx) (q : dot_S5000x256_S256x128_S5000x128_1_0_0_1_n_n.contr.Idx) : (dot_S5000x256_S256x128_S5000x128_1_0_0_1_n_n.rhsIdx i q 0).val = (q ⟨0, by decide⟩).val :=
  dot_S5000x256_S256x128_S5000x128_1_0_0_1_n_n.rhsIdx_val_of_single rfl i q
theorem dotOut_rhs1 (i : S5000x128.Idx) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The second product (a block of hidden rows by `w2`) at row `p`, output feature `c`: the sum over the 256 hidden units. -/
theorem dotOut_apply (a : FVec Ideal S5000x256 .bf16) (w : FVec Ideal S256x128 .bf16) (p : Fin 5000) (c : Fin 128) :
    matmul dot_S5000x256_S256x128_S5000x128_1_0_0_1_n_n none a w (constant (F := Ideal) S5000x128 .f32 0x00000000#32) (ix2 p c)
      = ∑ l : Fin 256, a (ix2 p l) * w (ix2 l c) := by
  simp only [matmul]
  rw [Ideal.matmul_constant_zero_apply, ← Equiv.sum_comp (contrEquiv1 dot_S5000x256_S256x128_S5000x128_1_0_0_1_n_n 256 rfl rfl).symm]
  refine Finset.sum_congr rfl fun l _ => ?_
  have hl := contrEquiv1_symm_val dot_S5000x256_S256x128_S5000x128_1_0_0_1_n_n 256 rfl rfl l
  have el : dot_S5000x256_S256x128_S5000x128_1_0_0_1_n_n.lhsIdx (ix2 p c) ((contrEquiv1 dot_S5000x256_S256x128_S5000x128_1_0_0_1_n_n 256 rfl rfl).symm l) = ix2 p l := funext fun ax => Fin.ext (by
    match ax with
    | ⟨0, _⟩ => exact dotOut_lhs0 _ _
    | ⟨1, _⟩ => exact (dotOut_lhs1 _ _).trans hl)
  have er : dot_S5000x256_S256x128_S5000x128_1_0_0_1_n_n.rhsIdx (ix2 p c) ((contrEquiv1 dot_S5000x256_S256x128_S5000x128_1_0_0_1_n_n 256 rfl rfl).symm l) = ix2 l c := funext fun ax => Fin.ext (by
    match ax with
    | ⟨0, _⟩ => exact (dotOut_rhs0 _ _).trans hl
    | ⟨1, _⟩ => exact dotOut_rhs1 _ _)
  rw [el, er]

end Cert.KernelIdeal.Body

end
-- ==== Proof.KernelPayload.lean ====
/-
  What one call of the kernel body stores, entry by entry.

  The body loads a block `x0` of 5000 aggregated rows, the weights `x1 = w1`, `x3 = w2` and the biases as one-row
  arrays `x2 = b1`, `x4 = b2`, and stores

      (max (x0 · x1 + rows(x2)) 0) · x3 + rows(x4)

  where `rows` repeats the one row 5000 times and the roundings to bf16 before each product are, on the extended reals,
  the identity.  Read at row `p` and column `j` this is the perceptron's formula on the block's row `p`
  (`blockOut` below): the products by `KernelDots`, the repeated row at `(p, k)` the bias at `(0, k)`, the rectifier
  the maximum with the zero word.
-/
import proofs.«160545_j91036126806159_1_alg».proof.Proof.Gen.KernelIdeal.Skeleton
import proofs.«160545_j91036126806159_1_alg».proof.Proof.KernelDots
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx

/-- The hidden layer of a block's row `p`, unit `k`, from the loaded blocks. -/
def blockHidden (x0 : Vec Ideal S5000x128 .f32) (x1 : Vec Ideal S128x256 .f32) (x2 : Vec Ideal S1x256 .f32)
    (p : Fin 5000) (k : Fin 256) : EReal :=
  max ((∑ l : Fin 128, x0 (ix2 p l) * x1 (ix2 l k)) + x2 (ix2 (0 : Fin 1) k)) (Ideal.ofBits .f32 0x00000000#32)

/-- The stored value at a block's row `p`, feature `j`, from the loaded blocks. -/
def blockOut (x0 : Vec Ideal S5000x128 .f32) (x1 : Vec Ideal S128x256 .f32) (x2 : Vec Ideal S1x256 .f32)
    (x3 : Vec Ideal S256x128 .f32) (x4 : Vec Ideal S1x128 .f32) (p : Fin 5000) (j : Fin 128) : EReal :=
  (∑ k : Fin 256, blockHidden x0 x1 x2 p k * x3 (ix2 k j)) + x4 (ix2 (0 : Fin 1) j)

/-- The body's hidden activations as a vector: first product, bias row, rectifier. -/
def hiddenVec (x0 : Vec Ideal S5000x128 .f32) (x1 : Vec Ideal S128x256 .f32) (x2 : Vec Ideal S1x256 .f32) :
    FVec Ideal S5000x256 .f32 :=
  maximumf
    (addf
      (matmul dot_S5000x128_S128x256_S5000x256_1_0_0_1_n_n none
        (truncf .bf16 (shapeCast S5000x128 x0 shapeCasts_S5000x128_S5000x128) bitsLt_bf16_f32)
        (truncf .bf16 x1 bitsLt_bf16_f32) (constant (F := Ideal) S5000x256 .f32 0x00000000#32))
      (broadcastTo S5000x256 (shapeCast S1x256 x2 shapeCasts_S1x256_S1x256) broadcasts_S1x256_S5000x256))
    (broadcast S5000x256 (Scalar.ofBits (F := Ideal) .f32 0x00000000#32))

/-- The payload is the second product of the hidden activations, plus the second bias row. -/
theorem pay_eq (x0 : Vec Ideal S5000x128 .f32) (x1 : Vec Ideal S128x256 .f32) (x2 : Vec Ideal S1x256 .f32)
    (x3 : Vec Ideal S256x128 .f32) (x4 : Vec Ideal S1x128 .f32) :
    k0_pay1 x0 x1 x2 x3 x4
      = addf
          (matmul dot_S5000x256_S256x128_S5000x128_1_0_0_1_n_n none (truncf .bf16 (hiddenVec x0 x1 x2) bitsLt_bf16_f32)
            (truncf .bf16 x3 bitsLt_bf16_f32) (constant (F := Ideal) S5000x128 .f32 0x00000000#32))
          (broadcastTo S5000x128 (shapeCast S1x128 x4 shapeCasts_S1x128_S1x128) broadcasts_S1x128_S5000x128) := rfl

/-- The hidden activations at row `p`, unit `k`. -/
theorem hiddenVec_apply (x0 : Vec Ideal S5000x128 .f32) (x1 : Vec Ideal S128x256 .f32) (x2 : Vec Ideal S1x256 .f32)
    (p : Fin 5000) (k : Fin 256) : hiddenVec x0 x1 x2 (ix2 p k) = blockHidden x0 x1 x2 p k := by
  unfold hiddenVec blockHidden
  rw [maximumf_apply, addf_apply, broadcast_apply]
  refine congrArg₂ max (congrArg₂ (· + ·) ?_ ?_) rfl
  · refine (dotIn_apply _ _ p k).trans (Finset.sum_congr rfl fun l _ => ?_)
    rw [truncf_apply, truncf_apply, shapeCast_self]
  · refine (broadcastTo_1b_ab_apply _ _ p k).trans ?_
    rw [shapeCast_self]

/-- THE PAYLOAD AT AN ENTRY: row `p`, feature `j` of what the body stores is the perceptron's formula on the loaded blocks. -/
theorem pay_apply (x0 : Vec Ideal S5000x128 .f32) (x1 : Vec Ideal S128x256 .f32) (x2 : Vec Ideal S1x256 .f32)
    (x3 : Vec Ideal S256x128 .f32) (x4 : Vec Ideal S1x128 .f32) (p : Fin 5000) (j : Fin 128) :
    k0_pay1 x0 x1 x2 x3 x4 (ix2 p j) = blockOut x0 x1 x2 x3 x4 p j := by
  rw [pay_eq, addf_apply]
  unfold blockOut
  refine congrArg₂ (· + ·) ?_ ?_
  · refine (dotOut_apply _ _ p j).trans (Finset.sum_congr rfl fun k _ => ?_)
    rw [truncf_apply, truncf_apply, hiddenVec_apply]
  · refine (broadcastTo_1b_ab_apply _ _ p j).trans ?_
    rw [shapeCast_self]

end Cert.KernelIdeal.Body

end
-- ==== Proof.HostArrays.lean ====
/-
  The arrays the kernel's region finds that the host wrote before it.

  Three of the region's operands are not arguments of the program but results of host operations:
  * the aggregated messages: the source node's row gathered per edge (a negative source index wrapped by the number of
    nodes first), the edge's features added, and the rows summed into their destination nodes starting from zero —
    named `agg` here as ONE function of the four graph arguments and never opened: the reference forms the same array by
    the same operations;
  * the two biases, each re-laid from a vector to a one-row matrix: row 0, column `k` is the vector's entry `k`.
-/
import proofs.«160545_j91036126806159_1_alg».proof.Proof.Gen.KernelIdeal.Frame
import Idealize.ShloMosaic.Lib.StableHlo.Run
import Idealize.ShloMosaic.Lib.ValueLayout

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

/-- The aggregated messages, one row per node, as a function of node features `x0`, edge features `x1`, edge sources `x2`
    and edge destinations `x3`. -/
def agg (x0 : (⟨S50000x128, .f32⟩ : BufTy).Contents (Elt Ideal)) (x1 : (⟨S800000x128, .f32⟩ : BufTy).Contents (Elt Ideal))
    (x2 x3 : (⟨S800000, .i32⟩ : BufTy).Contents (Elt Ideal)) : (⟨S50000x128, .f32⟩ : BufTy).Contents (Elt Ideal) :=
  Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 x3) (addf (Host.gather gather_S50000x128_S800000x1_S800000x128_1_0_n_n_0_1_1128 x0 (broadcastInDim S800000x1 ![0] bcast_S800000_S800000x1_0 (select (cmpi .slt x2 (broadcastInDim S800000 ![] bcast_S_S800000 (constantI S_ 32 0#32))) (addi x2 (broadcastInDim S800000 ![] bcast_S_S800000 (constantI S_ 32 50000#32))) x2))) x1)

variable (m : (ℓ : Loc nD τ sig) → Buf (Elt Ideal) ℓ)

/-- The region's first operand is the aggregation of the four graph arguments as launched. -/
theorem V_agg (c : Dev nD) :
    (V m c main_v10 : S50000x128.Idx → EReal)
      = agg (m ((c : Thread nD τ).loc main_arg0)) (m ((c : Thread nD τ).loc main_arg1))
          (m ((c : Thread nD τ).loc main_arg2)) (m ((c : Thread nD τ).loc main_arg3)) := by
  dsimp only [Gen.V, Gen.hostOps0]; after_results; rfl

/-- The first bias as the region finds it: the vector re-laid as one row. -/
theorem V_bias1 (c : Dev nD) :
    (V m c main_v11 : S1x256.Idx → EReal) = shapeCast S1x256 (m ((c : Thread nD τ).loc main_arg5)) shapeCasts_S256_S1x256 := by
  dsimp only [Gen.V, Gen.hostOps0]; after_results; rfl

/-- The second bias as the region finds it: the vector re-laid as one row. -/
theorem V_bias2 (c : Dev nD) :
    (V m c main_v12 : S1x128.Idx → EReal) = shapeCast S1x128 (m ((c : Thread nD τ).loc main_arg7)) shapeCasts_S128_S1x128 := by
  dsimp only [Gen.V, Gen.hostOps0]; after_results; rfl

/-- Row 0, column `k` of the first bias's row is the vector's entry `k`. -/
theorem V_bias1_apply (c : Dev nD) (k : Fin 256) :
    (V m c main_v11 : S1x256.Idx → EReal) (ix2 (0 : Fin 1) k) = m ((c : Thread nD τ).loc main_arg5) (ix1 k) := by
  rw [V_bias1]; exact shapeCast_a_1a_apply _ _ 0 k

/-- Row 0, column `j` of the second bias's row is the vector's entry `j`. -/
theorem V_bias2_apply (c : Dev nD) (j : Fin 128) :
    (V m c main_v12 : S1x128.Idx → EReal) (ix2 (0 : Fin 1) j) = m ((c : Thread nD τ).loc main_arg7) (ix1 j) := by
  rw [V_bias2]; exact shapeCast_a_1a_apply _ _ 0 j

end Cert.KernelIdeal.HostSide

end
-- ==== Proof.MlpSpec.lean ====
/-
  The two-layer perceptron both programs compute on the aggregated node features, written once, entry by entry,
  over the extended reals.

  For a node `r` and an output feature `j`:

      out[r, j] = (∑ k < 256, hidden[r, k] · w2[k, j]) + b2[j],
      hidden[r, k] = max ((∑ l < 128, A[r, l] · w1[l, k]) + b1[k]) 0,

  where `A` is the array of aggregated messages (one row of 128 features per node). The zero of the rectifier is kept
  as the word both programs print for it; nothing below ever needs its value.  No law of the extended reals is used
  beyond the definitions: both programs form exactly these sums, the kernel 5000 rows at a time.
-/
import Idealize.ShloMosaic.PureOps.Ideal
import Idealize.ShloMosaic.Lib.ValueIdx

noncomputable section

namespace Cert.MlpSpec

open Idealize.ShloMosaic Idealize.ShloMosaic.ValueIdx

/-- The hidden layer at node `r`, unit `k`: the rectified affine image of the node's row of `A`. -/
def hidden (A : (⟨2, ![50000, 128]⟩ : Shape).Idx → EReal) (w1 : (⟨2, ![128, 256]⟩ : Shape).Idx → EReal)
    (b1 : (⟨1, ![256]⟩ : Shape).Idx → EReal) (r : Fin 50000) (k : Fin 256) : EReal :=
  max ((∑ l : Fin 128, A (ix2 r l) * w1 (ix2 l k)) + b1 (ix1 k)) (Ideal.ofBits .f32 0x00000000#32)

/-- The output at node `r`, feature `j`: the affine image of the node's hidden row. -/
def outAt (A : (⟨2, ![50000, 128]⟩ : Shape).Idx → EReal) (w1 : (⟨2, ![128, 256]⟩ : Shape).Idx → EReal)
    (b1 : (⟨1, ![256]⟩ : Shape).Idx → EReal) (w2 : (⟨2, ![256, 128]⟩ : Shape).Idx → EReal)
    (b2 : (⟨1, ![128]⟩ : Shape).Idx → EReal) (r : Fin 50000) (j : Fin 128) : EReal :=
  (∑ k : Fin 256, hidden A w1 b1 r k * w2 (ix2 k j)) + b2 (ix1 j)

/-- The whole output array, as one function of the aggregated features, the weights and the biases. -/
def mlp (A : (⟨2, ![50000, 128]⟩ : Shape).Idx → EReal) (w1 : (⟨2, ![128, 256]⟩ : Shape).Idx → EReal)
    (b1 : (⟨1, ![256]⟩ : Shape).Idx → EReal) (w2 : (⟨2, ![256, 128]⟩ : Shape).Idx → EReal)
    (b2 : (⟨1, ![128]⟩ : Shape).Idx → EReal) : (⟨2, ![50000, 128]⟩ : Shape).Idx → EReal :=
  fun i => outAt A w1 b1 w2 b2 (i 0) (i 1)

/-- At the index with coordinates `(r, j)` the array holds `outAt … r j`. -/
theorem mlp_ix2 (A : (⟨2, ![50000, 128]⟩ : Shape).Idx → EReal) (w1 : (⟨2, ![128, 256]⟩ : Shape).Idx → EReal)
    (b1 : (⟨1, ![256]⟩ : Shape).Idx → EReal) (w2 : (⟨2, ![256, 128]⟩ : Shape).Idx → EReal)
    (b2 : (⟨1, ![128]⟩ : Shape).Idx → EReal) (r : Fin 50000) (j : Fin 128) :
    mlp A w1 b1 w2 b2 (ix2 r j) = outAt A w1 b1 w2 b2 r j := rfl

end Cert.MlpSpec

end
-- ==== Proof.KernelArray.lean ====
/-
  From blocks to the whole array: after the kernel's run its output array is the perceptron of the aggregated messages.

  The grid has ten points; point `t` works on rows `5000·t … 5000·t + 4999`: its first operand's block and its output block
  are block `t` along the rows, while the weights and the two one-row biases are the same whole arrays at every point.
  So what point `t` writes back is, at block row `p` and feature `j`, the perceptron's formula on row `5000·t + p` of the
  aggregated messages — block `t` of ONE whole-array function — and since every row `r` lies in the block of point
  `r / 5000`, the blocks cover the array, which therefore ends equal to that function.
-/
import proofs.«160545_j91036126806159_1_alg».proof.Proof.Gen.KernelIdeal.Value
import proofs.«160545_j91036126806159_1_alg».proof.Proof.KernelPayload
import proofs.«160545_j91036126806159_1_alg».proof.Proof.HostArrays
import proofs.«160545_j91036126806159_1_alg».proof.Proof.MlpSpec
import Idealize.ShloMosaic.Lib.Pipeline.Value

noncomputable section

namespace Cert.KernelIdeal.Whole

open Cert.KernelIdeal Cert.KernelIdeal.Gen Cert.KernelIdeal.Body Cert.KernelIdeal.HostSide
open Idealize.ShloMosaic Idealize.ShloMosaic.TcCoe Idealize.SL.Sem Idealize.ShloMosaic.ValueIdx
open Idealize.ShloMosaic.Pipeline (Dat)

/-- On one row, the block formula over loaded blocks is the perceptron's over whole arrays, once each loaded entry the
    formula reads is the corresponding entry of the whole arrays: the block's row `p` is the array's row `r`, the weights
    are read where they are, each bias row's entry is the bias vector's. -/
theorem blockOut_eq_outAt (A : (⟨2, ![50000, 128]⟩ : Shape).Idx → EReal) (W1 : (⟨2, ![128, 256]⟩ : Shape).Idx → EReal)
    (b1 : (⟨1, ![256]⟩ : Shape).Idx → EReal) (W2 : (⟨2, ![256, 128]⟩ : Shape).Idx → EReal) (b2 : (⟨1, ![128]⟩ : Shape).Idx → EReal)
    (x0 : Vec Ideal S5000x128 .f32) (x1 : Vec Ideal S128x256 .f32) (x2 : Vec Ideal S1x256 .f32)
    (x3 : Vec Ideal S256x128 .f32) (x4 : Vec Ideal S1x128 .f32) (r : Fin 50000) (p : Fin 5000) (j : Fin 128)
    (h0 : ∀ l : Fin 128, x0 (ix2 p l) = A (ix2 r l))
    (h1 : ∀ (l : Fin 128) (k : Fin 256), x1 (ix2 l k) = W1 (ix2 l k))
    (h2 : ∀ k : Fin 256, x2 (ix2 (0 : Fin 1) k) = b1 (ix1 k))
    (h3 : ∀ (k : Fin 256) (j : Fin 128), x3 (ix2 k j) = W2 (ix2 k j))
    (h4 : ∀ j : Fin 128, x4 (ix2 (0 : Fin 1) j) = b2 (ix1 j)) :
    blockOut x0 x1 x2 x3 x4 p j = Cert.MlpSpec.outAt A W1 b1 W2 b2 r j := by
  unfold blockOut Cert.MlpSpec.outAt
  rw [h4 j]
  refine congrArg (· + b2 (ix1 j)) (Finset.sum_congr rfl fun k _ => ?_)
  rw [h3 k j]
  refine congrArg (· * W2 (ix2 k j)) ?_
  unfold blockHidden Cert.MlpSpec.hidden
  rw [h2 k]
  refine congrArg (fun s => max (s + b1 (ix1 k)) (Ideal.ofBits .f32 0x00000000#32)) (Finset.sum_congr rfl fun l _ => ?_)
  rw [h0 l, h1 l k]

variable (m : (ℓ : Loc nD τ sig) → Buf (Elt Ideal) ℓ) (ρ : Dev nD → PrngReg)

theorem hz : (![0, 0] : Fin 2 → Nat) = fun _ => 0 := funext fun a => by fin_cases a <;> rfl

/-- The output array the run should end with: the perceptron of the aggregation of the graph arguments, with the weights
    and biases as launched. -/
def result (c : Dev nD) : S50000x128.Idx → EReal :=
  Cert.MlpSpec.mlp
    (agg (m ((c : Thread nD τ).loc main_arg0)) (m ((c : Thread nD τ).loc main_arg1))
      (m ((c : Thread nD τ).loc main_arg2)) (m ((c : Thread nD τ).loc main_arg3)))
    (m ((c : Thread nD τ).loc main_arg4)) (m ((c : Thread nD τ).loc main_arg5))
    (m ((c : Thread nD τ).loc main_arg6)) (m ((c : Thread nD τ).loc main_arg7))

/-- The printed index maps, decided over the ten points: the first operand and the output are at block `t` along the
    rows; every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The windows' geometry, for an arbitrary array

Each lemma reads a block of an ARBITRARY array `X` through a window at point `t`: only the printed index maps and the
block sizes enter (an entry of a block sits, on each axis, at block index × block size + its coordinate in the block). -/

/-- Row `p` of the first operand's block at point `t` is row `5000·t + p` of its array. -/
theorem rows_in (X : S50000x128.Idx → EReal) (t : Fin cfg0.N) (p : Fin 5000) (l : Fin 128) (r : Fin 50000)
    (hr : r.val = t.val * 5000 + p.val) :
    ((cfg0.win 0).blk t).view.read (Elt Ideal) X (ix2 p l) = X (ix2 r l) := by
  show X (((cfg0.win 0).blk t).view.emb (ix2 p l)) = X (ix2 r l)
  refine congrArg X ?_
  obtain ⟨e0, e1, -⟩ := idx_facts t
  funext a; apply Fin.ext
  match a with
  | ⟨0, _⟩ => show win0_0.index t (0 : Fin 2) * 5000 + 1 * p.val = r.val; omega
  | ⟨1, _⟩ => show win0_0.index t (1 : Fin 2) * 128 + 1 * l.val = l.val; omega

/-- Row `p` of the output's block at point `t` is row `5000·t + p` of its array. -/
theorem rows_out (X : S50000x128.Idx → EReal) (t : Fin cfg0.N) (p : Fin 5000) (l : Fin 128) (r : Fin 50000)
    (hr : r.val = t.val * 5000 + p.val) :
    ((cfg0.win 5).blk t).view.read (Elt Ideal) X (ix2 p l) = X (ix2 r l) := by
  show X (((cfg0.win 5).blk t).view.emb (ix2 p l)) = X (ix2 r l)
  refine congrArg X ?_
  obtain ⟨-, -, -, -, -, -, -, -, -, -, e0, e1⟩ := idx_facts t
  funext a; apply Fin.ext
  match a with
  | ⟨0, _⟩ => show win0_5.index t (0 : Fin 2) * 5000 + 1 * p.val = r.val; omega
  | ⟨1, _⟩ => show win0_5.index t (1 : Fin 2) * 128 + 1 * l.val = l.val; omega

/-- The first weight matrix's block is the whole matrix, at every point. -/
theorem whole_w1 (X : S128x256.Idx → EReal) (t : Fin cfg0.N) (l : Fin 128) (k : Fin 256) :
    ((cfg0.win 1).blk t).view.read (Elt Ideal) X (ix2 l k) = X (ix2 l k) := by
  show X (((cfg0.win 1).blk t).view.emb (ix2 l k)) = X (ix2 l k)
  refine congrArg X ?_
  obtain ⟨-, -, e0, e1, -⟩ := idx_facts t
  funext a; apply Fin.ext
  match a with
  | ⟨0, _⟩ => show win0_1.index t (0 : Fin 2) * 128 + 1 * l.val = l.val; omega
  | ⟨1, _⟩ => show win0_1.index t (1 : Fin 2) * 256 + 1 * k.val = k.val; omega

/-- The first bias row's block is the whole row, at every point. -/
theorem whole_b1 (X : S1x256.Idx → EReal) (t : Fin cfg0.N) (u : Fin 1) (k : Fin 256) :
    ((cfg0.win 2).blk t).view.read (Elt Ideal) X (ix2 u k) = X (ix2 u k) := by
  show X (((cfg0.win 2).blk t).view.emb (ix2 u k)) = X (ix2 u k)
  refine congrArg X ?_
  obtain ⟨-, -, -, -, e0, e1, -⟩ := idx_facts t
  funext a; apply Fin.ext
  match a with
  | ⟨0, _⟩ => show win0_2.index t (0 : Fin 2) * 1 + 1 * u.val = u.val; omega
  | ⟨1, _⟩ => show win0_2.index t (1 : Fin 2) * 256 + 1 * k.val = k.val; omega

/-- The second weight matrix's block is the whole matrix, at every point. -/
theorem whole_w2 (X : S256x128.Idx → EReal) (t : Fin cfg0.N) (k : Fin 256) (j : Fin 128) :
    ((cfg0.win 3).blk t).view.read (Elt Ideal) X (ix2 k j) = X (ix2 k j) := by
  show X (((cfg0.win 3).blk t).view.emb (ix2 k j)) = X (ix2 k j)
  refine congrArg X ?_
  obtain ⟨-, -, -, -, -, -, e0, e1, -⟩ := idx_facts t
  funext a; apply Fin.ext
  match a with
  | ⟨0, _⟩ => show win0_3.index t (0 : Fin 2) * 256 + 1 * k.val = k.val; omega
  | ⟨1, _⟩ => show win0_3.index t (1 : Fin 2) * 128 + 1 * j.val = j.val; omega

/-- The second bias row's block is the whole row, at every point. -/
theorem whole_b2 (X : S1x128.Idx → EReal) (t : Fin cfg0.N) (u : Fin 1) (j : Fin 128) :
    ((cfg0.win 4).blk t).view.read (Elt Ideal) X (ix2 u j) = X (ix2 u j) := by
  show X (((cfg0.win 4).blk t).view.emb (ix2 u j)) = X (ix2 u j)
  refine congrArg X ?_
  obtain ⟨-, -, -, -, -, -, -, -, e0, e1, -⟩ := idx_facts t
  funext a; apply Fin.ext
  match a with
  | ⟨0, _⟩ => show win0_4.index t (0 : Fin 2) * 1 + 1 * u.val = u.val; omega
  | ⟨1, _⟩ => show win0_4.index t (1 : Fin 2) * 128 + 1 * j.val = j.val; omega

/-! ## The body's one store, over arbitrary loaded blocks -/

/-- The output buffer after the body — its one store, of the payload, over the whole buffer — holds at row `p`, feature `j`
    the perceptron's block formula of the loaded blocks. -/
theorem out_apply (x0 : Vec Ideal S5000x128 .f32) (x1 : Vec Ideal S128x256 .f32) (x2 : Vec Ideal S1x256 .f32)
    (x3 : Vec Ideal S256x128 .f32) (x4 : Vec Ideal S1x128 .f32) (p : Fin 5000) (j : Fin 128) :
    out0_5 x0 x1 x2 x3 x4 (ix2 p j) = blockOut x0 x1 x2 x3 x4 p j := by
  unfold out0_5
  rw [View.canon_unit_zero hz]
  simp only [View.ld_unit_zero (S := S5000x128) hz, View.ld_unit_zero (S := S128x256) hz, View.ld_unit_zero (S := S1x256) hz,
    View.ld_unit_zero (S := S256x128) hz, View.ld_unit_zero (S := S1x128) hz]
  exact pay_apply x0 x1 x2 x3 x4 p j

/-- The output window's block is never clipped: what is written back is the buffer as it stands. -/
theorem cut_out (t : Fin cfg0.N) (X : Vec Ideal S5000x128 .f32) : (cfg0.win 5).cut (grid0.coords t) X = X := rfl

/-! ## The blocks at a point, read off the arrays the region finds -/

theorem in_rows (c : Dev nD) (t : Fin cfg0.N) (p : Fin 5000) (l : Fin 128) (r : Fin 50000) (hr : r.val = t.val * 5000 + p.val) :
    iblk m c 0 t (ix2 p l) = agg (m ((c : Thread nD τ).loc main_arg0)) (m ((c : Thread nD τ).loc main_arg1))
      (m ((c : Thread nD τ).loc main_arg2)) (m ((c : Thread nD τ).loc main_arg3)) (ix2 r l) := by
  unfold iblk
  exact (rows_in _ t p l r hr).trans (congrFun (V_agg m c) (ix2 r l))

theorem in_w1 (c : Dev nD) (t : Fin cfg0.N) (l : Fin 128) (k : Fin 256) :
    iblk m c 1 t (ix2 l k) = m ((c : Thread nD τ).loc main_arg4) (ix2 l k) := by
  unfold iblk
  exact (whole_w1 _ t l k).trans (congrFun (V_main_arg4 m c) (ix2 l k))

theorem in_b1 (c : Dev nD) (t : Fin cfg0.N) (k : Fin 256) :
    iblk m c 2 t (ix2 (0 : Fin 1) k) = m ((c : Thread nD τ).loc main_arg5) (ix1 k) := by
  unfold iblk
  exact (whole_b1 _ t 0 k).trans (V_bias1_apply m c k)

theorem in_w2 (c : Dev nD) (t : Fin cfg0.N) (k : Fin 256) (j : Fin 128) :
    iblk m c 3 t (ix2 k j) = m ((c : Thread nD τ).loc main_arg6) (ix2 k j) := by
  unfold iblk
  exact (whole_w2 _ t k j).trans (congrFun (V_main_arg6 m c) (ix2 k j))

theorem in_b2 (c : Dev nD) (t : Fin cfg0.N) (j : Fin 128) :
    iblk m c 4 t (ix2 (0 : Fin 1) j) = m ((c : Thread nD τ).loc main_arg7) (ix1 j) := by
  unfold iblk
  exact (whole_b2 _ t 0 j).trans (V_bias2_apply m c j)

/-- WHAT POINT `t` WRITES BACK is block `t` of `result`. -/
theorem flushed_eq (c : Dev nD) (t : Fin cfg0.N) :
    (dats m 0 c).flushed 5 t = ((cfg0.win 5).blk t).view.read (Elt Ideal) (result m c) := by
  rw [Cert.KernelIdeal.Value.flushed5, cut_out]
  funext y
  obtain ⟨p, j, rfl⟩ : ∃ (p : Fin 5000) (j : Fin 128), y = ix2 p j := ⟨y 0, y 1, eq_ix2 y⟩
  have hN : grid0.N = 10 := N_0
  have ht : t.val < grid0.N := t.isLt
  have hp : p.val < 5000 := p.isLt
  let r : Fin 50000 := ⟨t.val * 5000 + p.val, by omega⟩
  have hr : r.val = t.val * 5000 + p.val := rfl
  refine (out_apply (iblk m c 0 t) (iblk m c 1 t) (iblk m c 2 t) (iblk m c 3 t) (iblk m c 4 t) p j).trans ?_
  refine Eq.trans ?_ (rows_out (result m c) t p j r hr).symm
  unfold result
  rw [Cert.MlpSpec.mlp_ix2]
  exact blockOut_eq_outAt _ _ _ _ _ (iblk m c 0 t) (iblk m c 1 t) (iblk m c 2 t) (iblk m c 3 t) (iblk m c 4 t) r p j
    (fun l => in_rows m c t p l r hr) (fun l k => in_w1 m c t l k) (fun k => in_b1 m c t k)
    (fun k j => in_w2 m c t k j) (fun j => in_b2 m c t j)

/-! ## The blocks cover the array -/

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v13).slice (win0_5.rect t)).set ↔ _
  rw [View.set_slice_whole, Rect.mem_set_unit]
  exact Iff.rfl

/-- Every index of the output array is in the block of the point `row / 5000`, which writes it back. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  have hq : (i 0).val / 5000 < grid0.N := by omega
  refine ⟨⟨(i 0).val / 5000, hq⟩, flush0_5 _, ?_⟩
  rw [mem_blk]
  obtain ⟨-, -, -, -, -, -, -, -, -, -, e0, e1⟩ := idx_facts ⟨(i 0).val / 5000, hq⟩
  have e0' : win0_5.index ⟨(i 0).val / 5000, hq⟩ (0 : Fin 2) = (i 0).val / 5000 := e0
  intro a
  match a with
  | ⟨0, _⟩ =>
    show win0_5.index ⟨(i 0).val / 5000, hq⟩ (0 : Fin 2) * 5000 ≤ (i 0).val
      ∧ (i 0).val < win0_5.index ⟨(i 0).val / 5000, hq⟩ (0 : Fin 2) * 5000 + 5000
    omega
  | ⟨1, _⟩ =>
    show win0_5.index ⟨(i 0).val / 5000, hq⟩ (1 : Fin 2) * 128 ≤ (i 1).val
      ∧ (i 1).val < win0_5.index ⟨(i 0).val / 5000, hq⟩ (1 : Fin 2) * 128 + 128
    omega

/-! ## The array after the run, and the run -/

/-- THE OUTPUT ARRAY after the run is `result`: every point writes back its block of it, and the blocks cover the array. -/
theorem final (c : Dev nD) : (dats m 0 c).arrAt 5 cfg0.N = result m c :=
  (dats m 0 c).arrAt_eq_of_cover 5 (result m c) (fun t _ => flushed_eq m c t) cover

/-- The kernel program's run: every weakly fair execution terminates with the output array at `result` and the
    arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.Whole

end
-- ==== Proof.RefIsMlp.lean ====
/-
  The reference program's result is the perceptron `MlpSpec.mlp` of its aggregated-messages array.

  The reference computes `agg @ w1 + b1`, rectifies, then `· @ w2 + b2`: two host matrix products, each followed by a
  row bias broadcast down the nodes.  Read entry by entry, a host product is the sum over the contracted axis of the
  products of the operands' entries, a broadcast bias at `(r, k)` is the bias at `k`, and the rectifier is the maximum
  with the zero word.  That is `MlpSpec.outAt`, term for term.  The array `agg` (a gather of source rows, the edge
  features added, scatter-summed by destination) is carried as it stands and never opened.
-/
import proofs.«160545_j91036126806159_1_alg».proof.Proof.Gen.ReferenceIdeal.Read
import proofs.«160545_j91036126806159_1_alg».proof.Proof.MlpSpec

noncomputable section

namespace Cert.ReferenceIdeal.RefValue

open Cert.ReferenceIdeal Cert.ReferenceIdeal.Read Idealize.ShloMosaic Idealize.ShloMosaic.ValueIdx

/-- The reference's last stage, as a function of @main's eight arguments, is the perceptron of its aggregation stage. -/
theorem result_eq_mlp (x0 : (⟨S50000x128, .f32⟩ : BufTy).Contents (Elt Ideal)) (x1 : (⟨S800000x128, .f32⟩ : BufTy).Contents (Elt Ideal))
    (x2 x3 : (⟨S800000, .i32⟩ : BufTy).Contents (Elt Ideal)) (x4 : (⟨S128x256, .f32⟩ : BufTy).Contents (Elt Ideal))
    (x5 : (⟨S256, .f32⟩ : BufTy).Contents (Elt Ideal)) (x6 : (⟨S256x128, .f32⟩ : BufTy).Contents (Elt Ideal))
    (x7 : (⟨S128, .f32⟩ : BufTy).Contents (Elt Ideal)) :
    val_main_v19 (F := Ideal) x0 x1 x2 x3 x4 x5 x6 x7
      = Cert.MlpSpec.mlp (val_main_v10 (F := Ideal) x0 x1 x2 x3) x4 x5 x6 x7 := by
  funext i
  obtain ⟨r, j, rfl⟩ : ∃ (r : Fin 50000) (j : Fin 128), i = ix2 r j := ⟨i 0, i 1, eq_ix2 i⟩
  rw [Cert.MlpSpec.mlp_ix2]
  -- the composed index maps of the stages, in plain coordinates
  have eL2 : ∀ k : Fin 256, lidx_main_v16 (ix2 r j) k = ix2 r k := fun k =>
    funext fun a => by match a with | ⟨0, _⟩ => rfl | ⟨1, _⟩ => rfl
  have eR2 : ∀ k : Fin 256, ridx_main_v16 (ix2 r j) k = ix2 k j := fun k =>
    funext fun a => by match a with | ⟨0, _⟩ => rfl | ⟨1, _⟩ => rfl
  have eB2 : idx_main_v17 (idx_main_v18 (ix2 r j)) = ix1 j :=
    funext fun a => by match a with | ⟨0, _⟩ => rfl
  have eL1 : ∀ (k : Fin 256) (l : Fin 128), lidx_main_v11 (ix2 r k) l = ix2 r l := fun k l =>
    funext fun a => by match a with | ⟨0, _⟩ => rfl | ⟨1, _⟩ => rfl
  have eR1 : ∀ (k : Fin 256) (l : Fin 128), ridx_main_v11 (ix2 r k) l = ix2 l k := fun k l =>
    funext fun a => by match a with | ⟨0, _⟩ => rfl | ⟨1, _⟩ => rfl
  have eB1 : ∀ k : Fin 256, idx_main_v12 (idx_main_v13 (ix2 r k)) = ix1 k := fun k =>
    funext fun a => by match a with | ⟨0, _⟩ => rfl
  rw [val_main_v19_apply, val_main_v16_apply, val_main_v18_apply, val_main_v17_apply, eB2, Ideal.addf_def]
  unfold Cert.MlpSpec.outAt
  refine congrArg (· + x7 (ix1 j)) (Finset.sum_congr rfl fun k _ => ?_)
  rw [eL2 k, eR2 k]
  refine congrArg (· * x6 (ix2 k j)) ?_
  -- the hidden layer at (r, k)
  rw [val_main_v15_apply, val_main_v14_apply, val_main_v11_apply, val_main_v13_apply, val_main_v12_apply,
    val_main_call0_v0_apply, val_main_call0_cst_apply, eB1 k, Ideal.maximumf_def, Ideal.addf_def, Ideal.ofBits_def]
  unfold Cert.MlpSpec.hidden
  refine congrArg (fun s => max (s + x5 (ix1 k)) (Ideal.ofBits .f32 0x00000000#32)) (Finset.sum_congr rfl fun l _ => ?_)
  rw [eL1 k l, eR1 k l]

end Cert.ReferenceIdeal.RefValue

end
-- ==== Proof.AggBridge.lean ====
/-
  The kernel's program and the reference form the aggregated messages by the same host operations with the same
  dimension numbers and the same literals (the wrap by the number of nodes, the zero the sums start from); the two
  printed programs merely name their shapes and records separately.  So the kernel side's `agg` and the reference's
  aggregation stage are one function of the four graph arguments — by unfolding the names, never the operations.
-/
import proofs.«160545_j91036126806159_1_alg».proof.Proof.HostArrays
import proofs.«160545_j91036126806159_1_alg».proof.Proof.Gen.ReferenceIdeal.Read

noncomputable section

namespace Cert.Bridge

open Idealize.ShloMosaic

/-- The kernel program's aggregation is the reference's aggregation stage. -/
theorem agg_eq (x0 : (⟨Cert.KernelIdeal.S50000x128, .f32⟩ : BufTy).Contents (Elt Ideal))
    (x1 : (⟨Cert.KernelIdeal.S800000x128, .f32⟩ : BufTy).Contents (Elt Ideal))
    (x2 x3 : (⟨Cert.KernelIdeal.S800000, .i32⟩ : BufTy).Contents (Elt Ideal)) :
    Cert.KernelIdeal.HostSide.agg x0 x1 x2 x3 = Cert.ReferenceIdeal.Read.val_main_v10 (F := Ideal) x0 x1 x2 x3 := rfl

end Cert.Bridge

end
-- ==== Proof.lean ====
/-
  The certificate of a message-passing layer: per edge, the source node's features plus the edge's features; summed
  into the destination nodes; then a two-layer perceptron with a rectifier on every node's 128 aggregated features,

      out = max (agg · w1 + b1) 0 · w2 + b2     (agg : 50000 × 128, w1 : 128 × 256, w2 : 256 × 128).

  The kernel program forms `agg` on the host exactly as the reference does and runs the perceptron in a kernel over ten
  blocks of 5000 nodes, rounding the operands of each product to bf16; the reference runs it as two host products over
  all nodes at once.  On the extended reals a rounding is the identity and a product into a zero accumulator is the plain
  sum over the contracted axis, so both programs leave, at node `r` and feature `j`,

      (∑ k < 256, max ((∑ l < 128, agg[r, l] · w1[l, k]) + b1[k]) 0 · w2[k, j]) + b2[j]

  (`MlpSpec.mlp`): the reference by reading its stages entry by entry (`RefIsMlp`), the kernel because each grid point
  writes back its block of that one array and the ten blocks cover it (`KernelPayload`, `KernelArray`), with `agg` the
  same function of the graph arguments on both sides (`HostArrays`, `AggBridge`).  No law of the extended reals beyond
  the definitions is used, so the precondition (finite inputs) is never opened.  The three frames are the programs' runs
  with the results dropped, and the idealization rewrote nothing, so `preserves` is trivial.
-/
import proofs.«160545_j91036126806159_1_alg».proof.Defs
import proofs.«160545_j91036126806159_1_alg».proof.Proof.Gen.Kernel
import proofs.«160545_j91036126806159_1_alg».proof.Proof.Gen.Kernel.Skeleton
import proofs.«160545_j91036126806159_1_alg».proof.Proof.Gen.Kernel.Launch
import proofs.«160545_j91036126806159_1_alg».proof.Proof.Gen.Kernel.Points
import proofs.«160545_j91036126806159_1_alg».proof.Proof.Gen.Kernel.Frame
import proofs.«160545_j91036126806159_1_alg».proof.Proof.Gen.KernelIdeal
import proofs.«160545_j91036126806159_1_alg».proof.Proof.Gen.KernelIdeal.Skeleton
import proofs.«160545_j91036126806159_1_alg».proof.Proof.Gen.KernelIdeal.Launch
import proofs.«160545_j91036126806159_1_alg».proof.Proof.Gen.KernelIdeal.Points
import proofs.«160545_j91036126806159_1_alg».proof.Proof.Gen.KernelIdeal.Frame
import proofs.«160545_j91036126806159_1_alg».proof.Proof.Gen.ReferenceIdeal
import proofs.«160545_j91036126806159_1_alg».proof.Proof.Gen.Pre_finite_inputs
import proofs.«160545_j91036126806159_1_alg».proof.Proof.Gen.KernelIdeal.Value
import proofs.«160545_j91036126806159_1_alg».proof.Proof.Gen.ReferenceIdeal.Run
import proofs.«160545_j91036126806159_1_alg».proof.Proof.Gen.ReferenceIdeal.Read
import proofs.«160545_j91036126806159_1_alg».proof.Proof.KernelArray
import proofs.«160545_j91036126806159_1_alg».proof.Proof.RefIsMlp
import proofs.«160545_j91036126806159_1_alg».proof.Proof.AggBridge
import Idealize.ShloMosaic.Adequacy
import Idealize.ShloMosaic.Init

noncomputable section

namespace Cert.Proof

open Idealize.ShloMosaic Idealize.ShloMosaic.TcCoe Idealize.SL.Sem

/-- The kernel program as printed runs, and its arguments end unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the perceptron of the aggregated messages:
    the kernel's run ends there (`Whole.run`); the reference's result term is its last stage, that stage is the perceptron of
    its aggregation stage (`result_eq_mlp`), and the two aggregations are one function (`agg_eq`) of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v19_eq, Cert.ReferenceIdeal.RefValue.result_eq_mlp, a0, a1, a2, a3, a4, a5, a6, a7,
    ← Cert.Bridge.agg_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
